-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4096x2048 .f32) (main_arg1 : FVec F S2048x2048 .f32) (main_arg2 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S512x2048 : Shape := ⟨2, ![512, 2048]⟩
abbrev S1x512 : Shape := ⟨2, ![1, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x2048.size a
  hwx0_3 : ∀ i : grid0.Coords, EltTy.bits .f32 = 32 ∨ (Rect.block (s := S4096x2048) S1024x512.size (cc0_transform_3 i) (hinb0_3 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.RowDot.lean ====
/-
  The function both programs compute, stated once and away from either program.

  For a matrix `x` of 4096 rows and 2048 columns, a matrix `w` of 2048 rows and 2048 columns and a vector `b`
  of 2048 entries, the result has 4096 rows and 2048 columns, and its entry in row `n`, column `o` is

      ∑ₖ x[n, k] · w[o, k]  +  b[o]

  — row `n` of `x` against row `o` of `w` (so `x` times the transpose of `w`), plus the `o`-th bias entry.
  Everything is over the extended reals. No law beyond the definition is needed to join the two programs: each of
  them is this sum, with the factors in this order and the bias added on the right, so nothing has to be
  rearranged and finiteness of the inputs is never used.
-/
import Idealize.ShloMosaic.PureOps.Ideal
import Idealize.ShloMosaic.Lib.ValueIdx

open scoped BigOperators

noncomputable section

namespace Cert.RowDot

open Idealize.ShloMosaic Idealize.ShloMosaic.ValueIdx

/-- The entry in row `n`, column `o`: row `n` of `x` against row `o` of `w`, plus `b` at `o`. -/
def entry (x : FVec Ideal ⟨2, ![4096, 2048]⟩ .f32) (w : FVec Ideal ⟨2, ![2048, 2048]⟩ .f32) (b : FVec Ideal ⟨1, ![2048]⟩ .f32)
    (n : Fin 4096) (o : Fin 2048) : EReal :=
  (∑ k : Fin 2048, x (ix2 n k) * w (ix2 o k)) + b (ix1 o)

/-- The whole result array: `entry` at each index's two coordinates. -/
def affine (x : FVec Ideal ⟨2, ![4096, 2048]⟩ .f32) (w : FVec Ideal ⟨2, ![2048, 2048]⟩ .f32) (b : FVec Ideal ⟨1, ![2048]⟩ .f32) :
    FVec Ideal ⟨2, ![4096, 2048]⟩ .f32 :=
  fun i => entry x w b (i 0) (i 1)

/-- The array at the index with coordinates `n`, `o` is the entry there. -/
theorem affine_ix2 (x : FVec Ideal ⟨2, ![4096, 2048]⟩ .f32) (w : FVec Ideal ⟨2, ![2048, 2048]⟩ .f32) (b : FVec Ideal ⟨1, ![2048]⟩ .f32)
    (n : Fin 4096) (o : Fin 2048) : affine x w b (ix2 n o) = entry x w b n o := rfl

end Cert.RowDot

end
-- ==== Proof.ReferenceRowDot.lean ====
/-
  The reference computes `affine`.

  The reference is a host program of four operations: the product of `x` with `w` contracted along the second
  axis of each (so entry (n, o) is ∑ₖ x[n, k] · w[o, k]), the bias vector laid out as one row of 2048 entries,
  that row repeated over the 4096 rows, and the sum of the two arrays. Read at the index with coordinates
  (n, o), the product is the sum over k with the left factor at (n, k) and the right factor at (o, k), the
  repeated row is the bias at o, and the last operation adds them: this is `RowDot.entry` as written.
-/
import proofs.«139681_j38749194944771_2_alg».proof.Proof.Gen.ReferenceIdeal.Read
import proofs.«139681_j38749194944771_2_alg».proof.Proof.RowDot

open scoped BigOperators

noncomputable section

namespace Cert.ReferenceIdeal.RowDotValue

open Cert.ReferenceIdeal Cert.ReferenceIdeal.Read Idealize.ShloMosaic Idealize.ShloMosaic.ValueIdx Cert.RowDot

/-- The product's left factor sits at row `n`, column `k`. -/
theorem left_index (n : Fin 4096) (o k : Fin 2048) : lidx_main_v0 (ix2 n o) k = ix2 n k :=
  funext fun a => Fin.ext (by match a with | ⟨0, _⟩ => rfl | ⟨1, _⟩ => rfl)

/-- The product's right factor sits at row `o`, column `k`. -/
theorem right_index (n : Fin 4096) (o k : Fin 2048) : ridx_main_v0 (ix2 n o) k = ix2 o k :=
  funext fun a => Fin.ext (by match a with | ⟨0, _⟩ => rfl | ⟨1, _⟩ => rfl)

/-- The repeated row, read at (n, o), is the bias vector's entry `o`. -/
theorem bias_index (n : Fin 4096) (o : Fin 2048) : idx_main_v1 (idx_main_v2 (ix2 n o)) = ix1 o :=
  funext fun a => Fin.ext (by match a with | ⟨0, _⟩ => rfl)

/-- The reference's result, as a function of its three arguments, is `affine`. -/
theorem reference_eq (x : FVec Ideal S4096x2048 .f32) (w : FVec Ideal S2048x2048 .f32) (b : FVec Ideal S2048 .f32) :
    val_main_v3 (F := Ideal) x w b = affine x w b := by
  funext i
  obtain ⟨n, o, rfl⟩ : ∃ (n : Fin 4096) (o : Fin 2048), i = ix2 n o := ⟨i 0, i 1, eq_ix2 i⟩
  rw [val_main_v3_apply, val_main_v0_apply, val_main_v2_apply, val_main_v1_apply, affine_ix2]
  simp only [left_index, right_index, bias_index]
  rfl

end Cert.ReferenceIdeal.RowDotValue

end
-- ==== Proof.BlockProduct.lean ====
/-
  What the kernel body stores, read at one entry of its output block.

  At a grid point the body holds a block of 1024 rows of `x`, a block of 512 rows of `w` and a block of 512
  bias entries laid out as one row. It narrows the two matrix blocks to a shorter float format — the identity on
  the extended reals —, multiplies the first against the second contracted along the second axis of each into an
  accumulator that starts at zero, repeats the bias row over the 1024 rows, and adds. So the stored block's entry
  in row `p`, column `q` is

      ∑ₖ xblock[p, k] · wblock[q, k]  +  biasrow[0, q].

  The product into a zero accumulator is the bare sum (0 + s = s); its contraction index has one axis of extent
  2048, so the sum is over `k : Fin 2048`, the left factor at (p, k), the right factor at (q, k).
-/
import proofs.«139681_j38749194944771_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.BlockProduct

open Cert.KernelIdeal Cert.KernelIdeal.Gen Idealize.ShloMosaic Idealize.ShloMosaic.ValueIdx

/-- The product's dimension record: contract axis 1 of each operand, keep axis 0 of each. -/
abbrev D := dot_S1024x2048_S512x2048_S1024x512_1_1_0_0_n_n

/-- The left operand's row coordinate is the output's row. -/
theorem lhs_row (j : S1024x512.Idx) (κ : D.contr.Idx) : (D.lhsIdx j κ 0).val = (j 0).val := by
  unfold DotDims.lhsIdx
  rw [dif_neg (show ¬(0 : Fin S1024x2048.rank) ∈ D.lhsBatch by decide), dif_pos (show (0 : Fin S1024x2048.rank) ∈ D.lhsNonContracting by decide)]
  rfl

/-- The left operand's column coordinate is the contraction coordinate. -/
theorem lhs_col (j : S1024x512.Idx) (κ : D.contr.Idx) : (D.lhsIdx j κ 1).val = (κ ⟨0, by decide⟩).val :=
  D.lhsIdx_val_of_single rfl j κ

/-- The right operand's row coordinate is the output's column. -/
theorem rhs_row (j : S1024x512.Idx) (κ : D.contr.Idx) : (D.rhsIdx j κ 0).val = (j 1).val := by
  unfold DotDims.rhsIdx
  rw [dif_neg (show ¬(0 : Fin S512x2048.rank) ∈ D.rhsBatch by decide), dif_pos (show (0 : Fin S512x2048.rank) ∈ D.rhsNonContracting by decide)]
  rfl

/-- The right operand's column coordinate is the contraction coordinate. -/
theorem rhs_col (j : S1024x512.Idx) (κ : D.contr.Idx) : (D.rhsIdx j κ 1).val = (κ ⟨0, by decide⟩).val :=
  D.rhsIdx_val_of_single rfl j κ

/-- The product into the zero accumulator, at (p, q): row `p` of the left block against row `q` of the right. -/
theorem product_apply (a : FVec Ideal S1024x2048 .bf16) (b : FVec Ideal S512x2048 .bf16) (p : Fin 1024) (q : Fin 512) :
    FloatOps.matmul D none a b (constant (F := Ideal) S1024x512 .f32 0x00000000#32) (ix2 p q)
      = ∑ k : Fin 2048, a (ix2 p k) * b (ix2 q k) := by
  rw [Ideal.matmul_constant_zero_apply, ← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 p k := funext fun ax => Fin.ext (by
    match ax with
    | ⟨0, _⟩ => exact lhs_row _ _
    | ⟨1, _⟩ => exact (lhs_col _ _).trans hk)
  have er : D.rhsIdx (ix2 p q) ((contrEquiv1 D 2048 rfl rfl).symm k) = ix2 q k := funext fun ax => Fin.ext (by
    match ax with
    | ⟨0, _⟩ => exact rhs_row _ _
    | ⟨1, _⟩ => exact (rhs_col _ _).trans hk)
  rw [el, er]

/-- The repeated bias row at (p, q) is the row's entry `q`. -/
theorem bias_apply (r : Vec Ideal S1x512 .f32) (p : Fin 1024) (q : Fin 512) :
    broadcastTo S1024x512 (shapeCast S1x512 r shapeCasts_S1x512_S1x512) broadcasts_S1x512_S1024x512 (ix2 p q) = r (ix2 (0 : Fin 1) q) := by
  rw [shapeCast_self]
  exact broadcastTo_1b_ab_apply r broadcasts_S1x512_S1024x512 p q

/-- THE STORED BLOCK at (p, q): row `p` of the `x` block against row `q` of the `w` block, plus the bias row at `q`. -/
theorem stored_apply (xb : Vec Ideal S1024x2048 .f32) (wb : Vec Ideal S512x2048 .f32) (r : Vec Ideal S1x512 .f32) (p : Fin 1024) (q : Fin 512) :
    k0_pay1 (F := Ideal) xb wb r (ix2 p q) = (∑ k : Fin 2048, xb (ix2 p k) * wb (ix2 q k)) + r (ix2 (0 : Fin 1) q) := by
  unfold k0_pay1
  refine (addf_apply _ _ _).trans ?_
  refine congrArg₂ (· + ·) ?_ (bias_apply r p q)
  exact product_apply _ _ p q

end Cert.KernelIdeal.BlockProduct

end
-- ==== Proof.ArrayValue.lean ====
/-
  From the blocks each grid point writes to the whole result array.

  The grid has 4 × 4 points. At the point with coordinates (g, h) the kernel is given rows 1024·g … 1024·g + 1023
  of `x` (all 2048 columns), rows 512·h … 512·h + 511 of `w` (all 2048 columns) and entries 512·h … 512·h + 511
  of the bias — which the program has laid out beforehand as an array of one row and 2048 columns — and writes the
  block of the result with rows 1024·g … and columns 512·h …. Entry (p, q) of the written block is therefore entry
  (1024·g + p, 512·h + q) of `RowDot.affine` of the three argument arrays: the same row of `x`, the same row of `w`,
  the same bias entry. The sixteen blocks tile the 4096 × 2048 result — the point that covers row r, column s is
  (r / 1024, s / 512) — so after the run the result array is `affine` of the arguments everywhere.
-/
import proofs.«139681_j38749194944771_2_alg».proof.Proof.Gen.KernelIdeal.Value
import proofs.«139681_j38749194944771_2_alg».proof.Proof.BlockProduct
import proofs.«139681_j38749194944771_2_alg».proof.Proof.RowDot
import Idealize.ShloMosaic.Lib.StableHlo.Run

set_option maxRecDepth 16384

open scoped BigOperators

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo Cert.RowDot
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## Where each window's block sits -/

/-- The four index maps over the sixteen grid points: the `x` block follows the result block's row index and
    starts at column block 0; the `w` block's row index is the result block's COLUMN index, column block 0; the
    bias block sits in row 0 at the result block's column index; the result's block indices are at most 3. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 3 :=
  (by decide +kernel : ∀ t : Fin grid0.N, _)

/-- Every pair of block indices (g, h) below 4 is some grid point's. -/
theorem block_onto : ∀ (g h : Fin 4), ∃ t : Fin cfg0.N, win0_3.index t = ![g.val, h.val] :=
  (by decide +kernel : ∀ (g h : Fin 4), ∃ t : Fin grid0.N, win0_3.index t = ![g.val, h.val])

/-! ## The input blocks as pieces of the argument arrays -/

/-- The `x` block at a point, read at `y`, is `x` at the index displaced by the block's offset on each axis. -/
theorem x_block_apply (c : Dev nD) (t : Fin cfg0.N) (y : S1024x2048.Idx) (i : S4096x2048.Idx)
    (h0 : (i 0).val = win0_0.index t (0 : Fin 2) * 1024 + (y 0).val) (h1 : (i 1).val = win0_0.index t (1 : Fin 2) * 2048 + (y 1).val) :
    (iblk m c 0 t : Vec Ideal S1024x2048 .f32) y = (m ((c : Thread nD τ).loc main_arg0) : S4096x2048.Idx → EReal) i := by
  unfold iblk
  rw [View.read_apply]
  show V m c main_arg0 _ = _
  rw [V_main_arg0]
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 2048 + 1 * (y 1).val = (i 1).val; omega

/-- The `w` block at a point, read at `y`, is `w` at the displaced index. -/
theorem w_block_apply (c : Dev nD) (t : Fin cfg0.N) (y : S512x2048.Idx) (i : S2048x2048.Idx)
    (h0 : (i 0).val = win0_1.index t (0 : Fin 2) * 512 + (y 0).val) (h1 : (i 1).val = win0_1.index t (1 : Fin 2) * 2048 + (y 1).val) :
    (iblk m c 1 t : Vec Ideal S512x2048 .f32) y = (m ((c : Thread nD τ).loc main_arg1) : S2048x2048.Idx → EReal) i := by
  unfold iblk
  rw [View.read_apply]
  show V m c main_arg1 _ = _
  rw [V_main_arg1]
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 2048 + 1 * (y 1).val = (i 1).val; omega

/-- Before the grid runs, the program lays the bias vector out as one row of 2048 entries. -/
theorem bias_row (c : Dev nD) :
    (V m c main_v0 : S1x2048.Idx → EReal) = shapeCast S1x2048 (m ((c : Thread nD τ).loc main_arg2) : S2048.Idx → EReal) shapeCasts_S2048_S1x2048 := by
  dsimp only [Gen.V, Gen.hostOps0]
  after_results
  rfl

/-- The bias block at a point, read at (0, q), is the bias vector's entry at the block's offset plus q. -/
theorem bias_block_apply (c : Dev nD) (t : Fin cfg0.N) (q : Fin 512) (o : Fin 2048)
    (h0 : win0_2.index t (0 : Fin 2) = 0) (h1 : o.val = win0_2.index t (1 : Fin 2) * 512 + q.val) :
    (iblk m c 2 t : Vec Ideal S1x512 .f32) (ix2 (0 : Fin 1) q) = (m ((c : Thread nD τ).loc main_arg2) : S2048.Idx → EReal) (ix1 o) := by
  unfold iblk
  rw [View.read_apply]
  show V m c main_v0 _ = _
  rw [bias_row]
  refine Eq.trans ?_ (shapeCast_a_1a_apply (m ((c : Thread nD τ).loc main_arg2) : S2048.Idx → EReal) shapeCasts_S2048_S1x2048 (0 : Fin 1) o)
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = o.val; omega

/-! ## What a point writes back -/

/-- WHAT POINT `t` WRITES BACK is its block of `affine` of the three argument arrays. -/
theorem flushed_eq (c : Dev nD) (t : Fin cfg0.N) :
    (dats m 0 c).flushed 3 t = ((cfg0.win 3).blk t).view.read (Elt Ideal)
      (affine (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S1024x2048) zero_offsets, View.ld_unit_zero (S := S512x2048) zero_offsets,
    View.ld_unit_zero (S := S1x512) zero_offsets]
  obtain ⟨e0, e1, e2, e3, e4, e5, e6, e7⟩ := block_indices t
  funext y
  obtain ⟨p, q, rfl⟩ : ∃ (p : Fin 1024) (q : Fin 512), y = ix2 p q := ⟨y 0, y 1, eq_ix2 y⟩
  have hp : p.val < 1024 := p.isLt
  have hq : q.val < 512 := q.isLt
  show k0_pay1 (F := Ideal) (iblk m c 0 t) (iblk m c 1 t) (iblk m c 2 t) (ix2 p q)
    = affine (m ((c : Thread nD τ).loc main_arg0)) (m ((c : Thread nD τ).loc main_arg1)) (m ((c : Thread nD τ).loc main_arg2))
        (((cfg0.win 3).blk t).view.emb (ix2 p q))
  have hemb : ((cfg0.win 3).blk t).view.emb (ix2 p q)
      = ix2 (⟨win0_3.index t (0 : Fin 2) * 1024 + p.val, by omega⟩ : Fin 4096) (⟨win0_3.index t (1 : Fin 2) * 512 + q.val, by omega⟩ : Fin 2048) := by
    funext a; apply Fin.ext
    match a with
    | ⟨0, _⟩ => show win0_3.index t (0 : Fin 2) * 1024 + 1 * p.val = win0_3.index t (0 : Fin 2) * 1024 + p.val; omega
    | ⟨1, _⟩ => show win0_3.index t (1 : Fin 2) * 512 + 1 * q.val = win0_3.index t (1 : Fin 2) * 512 + q.val; omega
  rw [hemb, affine_ix2]
  refine (Cert.KernelIdeal.BlockProduct.stored_apply _ _ _ p q).trans ?_
  unfold entry
  refine congrArg₂ (· + ·) (Finset.sum_congr rfl fun k _ => congrArg₂ (· * ·) ?_ ?_) ?_
  · refine x_block_apply m c t (ix2 p k) _ ?_ ?_
    · show win0_3.index t (0 : Fin 2) * 1024 + p.val = win0_0.index t (0 : Fin 2) * 1024 + p.val; omega
    · show k.val = win0_0.index t (1 : Fin 2) * 2048 + k.val; omega
  · refine w_block_apply m c t (ix2 q k) _ ?_ ?_
    · show win0_3.index t (1 : Fin 2) * 512 + q.val = win0_1.index t (0 : Fin 2) * 512 + q.val; omega
    · show k.val = win0_1.index t (1 : Fin 2) * 2048 + k.val; omega
  · refine bias_block_apply m c t q _ e4 ?_
    show win0_3.index t (1 : Fin 2) * 512 + q.val = win0_2.index t (1 : Fin 2) * 512 + q.val; omega

/-! ## The blocks tile the result -/

/-- An index is in point `t`'s block iff each coordinate is in the block's range on its axis. -/
theorem mem_block (t : Fin cfg0.N) (i : S4096x2048.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v1).slice (win0_3.rect t)).set ↔ _
  rw [View.set_slice_whole, Rect.mem_set_unit]
  exact Iff.rfl

/-- Every index of the result is in the block of the point (row / 1024, column / 512). -/
theorem covered (i : S4096x2048.Idx) : ∃ t : Fin cfg0.N, (cfg0.win 3).flush t = true ∧ i ∈ ((cfg0.win 3).blk t).view.set := by
  have hi0 : (i 0).val < 4096 := (i 0).isLt
  have hi1 : (i 1).val < 2048 := (i 1).isLt
  obtain ⟨t, ht⟩ := block_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-! ## The result array, and the run -/

/-- THE RESULT ARRAY after the run is `affine` of the three argument arrays. -/
theorem final (c : Dev nD) : (dats m 0 c).arrAt 3 cfg0.N
    = affine (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel's program ends with the result array at `affine` of the arguments and
    the arguments as they were. -/
theorem run : θ_run defs (onTc (τ := τ) (main (F := Ideal))) ⟨m, fun _ => 0, ρ⟩ fun r => ∀ c : Dev nD,
      r.2.mem ((c : Thread nD τ).loc main_v1)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrayValue

end
-- ==== Proof.lean ====
/-
  A linear layer, `x · wᵀ + b`, computed block by block by a kernel and in one piece by a reference: the two agree
  on the extended reals.

  `x` has 4096 rows and 2048 columns, `w` has 2048 rows and 2048 columns, `b` has 2048 entries. Both programs
  produce the 4096 × 2048 array whose entry (n, o) is ∑ₖ x[n, k] · w[o, k] + b[o] (`RowDot.affine`):

  * the reference multiplies `x` against `w` contracted along the second axis of each and adds the bias repeated
    over the rows (`ReferenceRowDot.lean`);
  * the kernel walks a 4 × 4 grid; at point (g, h) it takes 1024 rows of `x`, 512 rows of `w` and 512 bias
    entries, narrows the matrix blocks to a shorter float format (the identity on the extended reals), multiplies
    them into a zero accumulator, adds the bias row, and writes one 1024 × 512 block of the result
    (`BlockProduct.lean`: one entry of that block; `ArrayValue.lean`: the sixteen blocks tile the result).

  Each side is that sum with the factors in the same order and the bias added on the right, so the two results
  are equal term for term: no rearrangement of the sum, and no use of the inputs' finiteness, is needed. The
  idealized kernel is the printed kernel read on the extended reals with no rewrite applied, so that it is the
  kernel's idealization holds trivially. Each program terminates without fault and leaves its arguments as they
  were: for the two kernels by the generated frame, for the reference by its generated run.
-/
import proofs.«139681_j38749194944771_2_alg».proof.Defs
import proofs.«139681_j38749194944771_2_alg».proof.Proof.Gen.Kernel
import proofs.«139681_j38749194944771_2_alg».proof.Proof.Gen.Kernel.Skeleton
import proofs.«139681_j38749194944771_2_alg».proof.Proof.Gen.Kernel.Launch
import proofs.«139681_j38749194944771_2_alg».proof.Proof.Gen.Kernel.Points
import proofs.«139681_j38749194944771_2_alg».proof.Proof.Gen.Kernel.Frame
import proofs.«139681_j38749194944771_2_alg».proof.Proof.Gen.KernelIdeal
import proofs.«139681_j38749194944771_2_alg».proof.Proof.Gen.KernelIdeal.Skeleton
import proofs.«139681_j38749194944771_2_alg».proof.Proof.Gen.KernelIdeal.Launch
import proofs.«139681_j38749194944771_2_alg».proof.Proof.Gen.KernelIdeal.Points
import proofs.«139681_j38749194944771_2_alg».proof.Proof.Gen.KernelIdeal.Frame
import proofs.«139681_j38749194944771_2_alg».proof.Proof.Gen.ReferenceIdeal
import proofs.«139681_j38749194944771_2_alg».proof.Proof.Gen.Pre_finite_inputs
import proofs.«139681_j38749194944771_2_alg».proof.Proof.Gen.KernelIdeal.Value
import proofs.«139681_j38749194944771_2_alg».proof.Proof.Gen.ReferenceIdeal.Run
import proofs.«139681_j38749194944771_2_alg».proof.Proof.Gen.ReferenceIdeal.Read
import proofs.«139681_j38749194944771_2_alg».proof.Proof.RowDot
import proofs.«139681_j38749194944771_2_alg».proof.Proof.ReferenceRowDot
import proofs.«139681_j38749194944771_2_alg».proof.Proof.ArrayValue
import Idealize.ShloMosaic.Adequacy
import Idealize.ShloMosaic.Init

noncomputable section

namespace Cert.Proof

open Idealize.ShloMosaic Idealize.ShloMosaic.TcCoe Idealize.SL.Sem

/-- The kernel as printed terminates without fault and leaves its three arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run ends with the arguments unchanged (and the result at its term, dropped here). -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals, so there is nothing to restate. -/
theorem preserves : Cert.preserves_Kernel_KernelIdeal := trivial

/-- From memories that agree on `x`, `w` and `b`, both programs end with the result array at `affine x w b`. -/
theorem algebraic : Cert.algebraic_KernelIdeal_ReferenceIdeal := by
  intro m ρ m' ρ' _ hagree
  refine ⟨fun c => Cert.RowDot.affine (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RowDotValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
